-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_cst_16)) (v2 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_cst_16) = v1 c
          ∧ r.2.mem ((c.tc : Thread Cert.KernelIdeal.nD Cert.KernelIdeal.τ).loc Cert.KernelIdeal.main_v79) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_cst_24) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 112
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S_, .f32⟩
  | .hbm, ⟨94, _⟩ => ⟨S512x128, .f32⟩
  | .hbm, ⟨95, _⟩ => ⟨S100000x1, .i32⟩
  | .hbm, ⟨96, _⟩ => ⟨S512x128, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S512, .f32⟩
  | .hbm, ⟨101, _⟩ => ⟨S100000x1, .i32⟩
  | .hbm, ⟨102, _⟩ => ⟨S512, .f32⟩
  | .hbm, ⟨103, _⟩ => ⟨S_, .f32⟩
  | .hbm, ⟨104, _⟩ => ⟨S512, .f32⟩
  | .hbm, ⟨105, _⟩ => ⟨S512, .f32⟩
  | .hbm, ⟨106, _⟩ => ⟨S512x1, .f32⟩
  | .hbm, ⟨107, _⟩ => ⟨S512x128, .f32⟩
  | .hbm, ⟨108, _⟩ => ⟨S512x128, .f32⟩
  | .hbm, ⟨109, _⟩ => ⟨S1x10, .f32⟩
  | .hbm, ⟨110, _⟩ => ⟨S512x10, .f32⟩
  | .hbm, ⟨111, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S512x128, .f32⟩
  | .local _ .vmem, ⟨17, _⟩ => ⟨S128x10, .f32⟩
  | .local _ .vmem, ⟨18, _⟩ => ⟨S1x10, .f32⟩
  | .local _ .vmem, ⟨19, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem1_0 : DmaSem sig := 17
abbrev cc3_sem2_0 : DmaSem sig := 18
abbrev cc3_sem3_0 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S512x10.size a ≤ S512x10.size a
  hwx3_3 : ∀ i : grid3.Coords, EltTy.bits .f32 = 32 ∨ (Rect.block (s := S512x10) S512x10.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S512x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S512x10.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S100000x128, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x128, .f32⟩
  | 120 => ⟨S1700000x1, .f32⟩
  | 121 => ⟨S1700000x128, .f32⟩
  | 122 => ⟨S1700000x128, .f32⟩
  | 123 => ⟨S_, .f32⟩
  | 124 => ⟨S100000x128, .f32⟩
  | 125 => ⟨S1700000x1, .i32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S512x128, .f32⟩
  | 11 => ⟨S100000x1, .i32⟩
  | 12 => ⟨S512x128, .f32⟩
  | 13 => ⟨S_, .f32⟩
  | 14 => ⟨S100000, .f32⟩
  | 15 => ⟨S_, .f32⟩
  | 16 => ⟨S512, .f32⟩
  | 17 => ⟨S100000x1, .i32⟩
  | 18 => ⟨S512, .f32⟩
  | 19 => ⟨S_, .f32⟩
  | 20 => ⟨S512, .f32⟩
  | 21 => ⟨S512, .f32⟩
  | 22 => ⟨S512x1, .f32⟩
  | 23 => ⟨S512x128, .f32⟩
  | 24 => ⟨S512x128, .f32⟩
  | 25 => ⟨S512x10, .f32⟩
  | 26 => ⟨S1x10, .f32⟩
  | 27 => ⟨S512x10, .f32⟩
  | 28 => ⟨S512x10, .f32⟩
  | 29 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v58 : Ref sig .tc := ⟨.hbm, 90, rfl⟩
abbrev main_c_13 : Ref sig .tc := ⟨.hbm, 91, rfl⟩
abbrev main_v59 : Ref sig .tc := ⟨.hbm, 92, rfl⟩
abbrev main_v60 : Ref sig .tc := ⟨.hbm, 93, rfl⟩
abbrev main_c_14 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_15 : Ref sig .tc := ⟨.hbm, 100, rfl⟩
abbrev main_v66 : Ref sig .tc := ⟨.hbm, 101, rfl⟩
abbrev main_v67 : Ref sig .tc := ⟨.hbm, 102, rfl⟩
abbrev main_c_16 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_21 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_24 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Whole.lean ====
/-
  The idealized kernel's run with every buffer named.

  The program is eleven segments: stretches of host operations and four dense-layer regions. The contents of the
  TensorCore's buffers at each segment boundary are a fold from the launch memory (a stretch applies its operations;
  a region replaces its arrays by what its write-backs leave). Every weakly fair execution terminates, and every
  unscoped buffer then holds the last boundary's contents. Stated at any float instance.
-/
import proofs.«181251_j41970420418158_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every core
    ends at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same at a named buffer that no region scopes. -/
theorem run_named : θ_run defs (onTc (τ := τ) (main (F := F))) ⟨m, fun _ => 0, ρ⟩ (fun r => ∀ c : Dev nD,
      ∀ b : Ref sig .tc, ¬ (Proc.devRef .tc b : DevRef τ sig).isScoped →
        r.2.mem ((c : Thread nD τ).loc b) = W11 m ρ c (Proc.devRef .tc b)) :=
  (θ_run defs _ _).mono (fun r h c b hb => h c _ (mem_uc b hb)) (run_boundary m ρ)

end Cert.KernelIdeal.Whole

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«181251_j41970420418158_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibHostSlab.lean ====
/-
  Two host forms read at an entry.

  The reference slices one `[1, a, b]` slab out of a weight stack `[M, a, b]`, drops the unit axis and transposes the
  matrix: at `(j, i)` the result is the stack at `(k, i, j)`. And it multiplies matrices by the host's
  `dot_general` contracting the left operand's columns with the right operand's rows: on the extended reals, at
  `(p, q)`, the sum over the contracted axis, whatever record the program prints for those dimension numbers.
-/
import proofs.«181251_j41970420418158_1_alg».proof.Proof.LibDotRecord
import Idealize.ShloMosaic.Lib.ValueLayout

namespace Bilinear.Host

open Idealize.ShloMosaic Idealize.ShloMosaic.ValueIdx

/-- The host's plain matrix product at `(p, q)`: the sum over the contracted axis. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (prec : Option ContractPrecision)
    (p : Fin M) (q : Fin N) :
    Host.dotGeneral d prec l r (ix2 p q) = ∑ k : Fin K, l (ix2 p k) * r (ix2 k q) := by
  have e := DotRecord.eq_plain d h1 h2 h3 h4 h5 h6
  subst e
  exact Gcn.Lib.plain_dotGeneral_apply l r prec .single p q

/-- Slab `k` of a stack, sliced out, read as a matrix and transposed. -/
theorem slabT_apply {α : Type} {M a b : ℕ} (A : (⟨3, ![M, a, b]⟩ : Shape).Idx → α) (o : ℕ) (k : Fin M) (hk : k.val = o)
    (hs : (⟨3, ![M, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] A hs) hc) ht (ix2 j i)
      = A (ix3 k i j) :=
  (transpose_ix2_apply _ ht j i).trans <| (shapeCast_1ab_ab_apply _ hc i j).trans <|
    extractStridedSlice_apply ![o, 0, 0] A hs (ix3 (0 : Fin 1) i j) (ix3 k i j) (fun ax => by
      match ax with
      | ⟨0, _⟩ => show k.val = o + 0; omega
      | ⟨1, _⟩ => exact (Nat.zero_add _).symm
      | ⟨2, _⟩ => exact (Nat.zero_add _).symm)

end Bilinear.Host
-- ==== Proof.LibDenseLayer.lean ====
/-
  The dense layers as whole-array functions, and the host's spelling of the same functions.

  A dense layer multiplies an array of M rows with K features by a K × N weight matrix: entry (r, q) is the sum over
  k of A (r, k) * W (k, q). Two layers first clamp the features at zero; two add a bias row to every row of the
  product. These are stated once here, over any extents, together with the facts that the host program's own
  operations — dot_general, maximum with a broadcast zero, the sum with a bias broadcast twice, a vector reshaped to
  a one-row matrix — are these functions at every entry. Nothing here needs a finite value: every law used is the
  definition of the operation at an entry.
-/
import proofs.«181251_j41970420418158_1_alg».proof.Proof.LibHostSlab
import Idealize.ShloMosaic.Lib.Pipeline.Value
import Idealize.ShloMosaic.Lib.ValueIdx
import Idealize.ShloMosaic.Lib.ValueLayout

noncomputable section

namespace Cert.DenseSpec

open Idealize.ShloMosaic Idealize.ShloMosaic.ValueIdx

variable {M K N : ℕ}

/-- Features clamped at zero, entry by entry. -/
def relu {s : Shape} (A : s.Idx → EReal) : s.Idx → EReal := fun i => max (A i) (Ideal.ofBits .f32 0x00000000#32)

/-- The product of M rows of K features with a K × N matrix, entry by entry. -/
def rowsTimes (A : (⟨2, ![M, K]⟩ : Shape).Idx → EReal) (W : (⟨2, ![K, N]⟩ : Shape).Idx → EReal) :
    (⟨2, ![M, N]⟩ : Shape).Idx → EReal :=
  fun i => ∑ k : Fin K, A (ix2 (⟨(i 0).val, (i 0).isLt⟩ : Fin M) k) * W (ix2 k (⟨(i 1).val, (i 1).isLt⟩ : Fin N))

theorem rowsTimes_ix2 (A : (⟨2, ![M, K]⟩ : Shape).Idx → EReal) (W : (⟨2, ![K, N]⟩ : Shape).Idx → EReal)
    (r : Fin M) (q : Fin N) : rowsTimes A W (ix2 r q) = ∑ k : Fin K, A (ix2 r k) * W (ix2 k q) := rfl

/-- A one-row matrix added to every row. -/
def addRow (X : (⟨2, ![M, N]⟩ : Shape).Idx → EReal) (b : (⟨2, ![1, N]⟩ : Shape).Idx → EReal) :
    (⟨2, ![M, N]⟩ : Shape).Idx → EReal :=
  fun i => X i + b (ix2 (0 : Fin 1) (⟨(i 1).val, (i 1).isLt⟩ : Fin N))

theorem addRow_ix2 (X : (⟨2, ![M, N]⟩ : Shape).Idx → EReal) (b : (⟨2, ![1, N]⟩ : Shape).Idx → EReal)
    (r : Fin M) (q : Fin N) : addRow X b (ix2 r q) = X (ix2 r q) + b (ix2 (0 : Fin 1) q) := rfl

/-- A vector of N entries as a one-row matrix. -/
def asRow (b : (⟨1, ![N]⟩ : Shape).Idx → EReal) : (⟨2, ![1, N]⟩ : Shape).Idx → EReal :=
  fun j => b (ix1 (⟨(j 1).val, (j 1).isLt⟩ : Fin N))

theorem zero2 : (![0, 0] : Fin 2 → Nat) = fun _ => 0 := funext fun a => by fin_cases a <;> rfl

/-! ## The host's operations are these functions -/

/-- The host's plain matrix product is the product entry by entry. -/
theorem hostDot_eq (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ .f32) (r : FVec Ideal ⟨2, ![K, N]⟩ .f32) :
    Host.dotGeneral d none l r = rowsTimes l r := by
  funext i
  obtain ⟨p, q, rfl⟩ : ∃ (p : Fin M) (q : Fin N), i = ix2 p q := ⟨i 0, i 1, eq_ix2 i⟩
  exact Bilinear.Host.dot_apply d h1 h2 h3 h4 h5 h6 l r none p q

/-- The host's maximum with a zero broadcast from a scalar is the clamp at zero. -/
theorem hostRelu_eq {s : Shape} (X : FVec Ideal s .f32) (h : (⟨0, ![]⟩ : Shape).BroadcastsInDim s ![]) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = _
  rw [broadcastInDim_apply ![] h _ i ix0 (fun a => a.elim0)]
  rfl

/-- The host's bias — a vector made a one-row matrix by a broadcast, then broadcast down the rows — added to a
    matrix is the row added to every row. -/
theorem hostBias_eq (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (asRow b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]
  rfl

/-- A vector reshaped to a one-row matrix is the vector as a row. -/
theorem reshapeRow_eq (b : (⟨1, ![N]⟩ : Shape).Idx → EReal) (h : (⟨1, ![N]⟩ : Shape).ShapeCasts ⟨2, ![1, N]⟩) :
    shapeCast ⟨2, ![1, N]⟩ b h = asRow b := by
  funext j
  refine shapeCast_apply b h j (ix1 (⟨(j 1).val, (j 1).isLt⟩ : Fin N)) ?_
  have h0 : (j 0).val = 0 := by have hlt : (j 0).val < 1 := (j 0).isLt; omega
  simp only [Shape.rowMajor_val_two, Shape.rowMajor_val_one]
  show (⟨(j 1).val, (j 1).isLt⟩ : Fin N).val = (j 0).val * N + (j 1).val
  rw [h0]; simp

end Cert.DenseSpec

end
-- ==== Proof.FoldA.lean ====
/-
  The buffers when the first dense layer is entered.

  Before the first region the program computes, from the edge list alone, the two index vectors (sources and
  targets, each with the self loops appended) and the per-edge weight (the product of the two end points' inverse
  square-root degrees, zero where a degree is not positive). Read back through the three stretches of host
  operations, each of these buffers holds exactly the term the reference computes for the same quantity, and every
  argument array still holds its launch contents. The edge weight is read in three steps — the degrees' comparison
  and inverse square root, the choice between them and zero, the two gathers and their product — each step from the
  buffers the previous one named.
-/
import proofs.«181251_j41970420418158_1_alg».proof.Proof.Gen.KernelIdeal.Frame
import proofs.«181251_j41970420418158_1_alg».proof.Proof.RefRead
import proofs.«181251_j41970420418158_1_alg».proof.Proof.LibDenseLayer
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.ReferenceIdeal.ReadP Cert.DenseSpec

variable (m : (ℓ : Loc nD τ sig) → Buf (Elt Ideal) ℓ) (ρ : Dev nD → PrngReg) (c : Dev nD)

/-! ## After the first stretch: the index vectors, the degrees compared with zero, their inverse square roots -/

theorem at1_v5 : W1 m ρ c (Proc.devRef .tc main_v5) = val_main_v5 (F := Ideal) (m ((c : Thread nD τ).loc main_arg1)) := by
  show StableHlo.after hostOps0 (W0 m ρ c) (Proc.devRef .tc main_v5) = _
  after_results_simp
  rfl

theorem at1_v6 : W1 m ρ c (Proc.devRef .tc main_v6) = val_main_v6 (F := Ideal) (m ((c : Thread nD τ).loc main_arg1)) := by
  show StableHlo.after hostOps0 (W0 m ρ c) (Proc.devRef .tc main_v6) = _
  after_results_simp
  rfl

theorem at1_v12 : W1 m ρ c (Proc.devRef .tc main_v12) = val_main_v12 (F := Ideal) (m ((c : Thread nD τ).loc main_arg1)) := by
  show StableHlo.after hostOps0 (W0 m ρ c) (Proc.devRef .tc main_v12) = _
  after_results_simp
  rfl

theorem at1_v13 : W1 m ρ c (Proc.devRef .tc main_v13) = val_main_v13 (F := Ideal) (m ((c : Thread nD τ).loc main_arg1)) := by
  show StableHlo.after hostOps0 (W0 m ρ c) (Proc.devRef .tc main_v13) = _
  after_results_simp
  rfl

theorem at1_cst_2 : W1 m ρ c (Proc.devRef .tc main_cst_2) = val_main_cst_2 (F := Ideal) := by
  show StableHlo.after hostOps0 (W0 m ρ c) (Proc.devRef .tc main_cst_2) = _
  after_results_simp
  rfl

/-! ## After the second: the inverse square roots, zero where the degree is not positive -/

/-! The host function that chooses between the inverse square root and zero is printed over typed references: a
    value is carried to its buffer's type and back along an equation of types that holds by computation, so each
    transport is the identity. -/
section
variable {T : BufTy}

theorem toBuf_eq (x : StableHlo.TRef sig T) (v : T.Contents (Elt Ideal)) (w : x.ref.ty.Contents (Elt Ideal))
    (hw : HEq w v) : x.toBuf v = w :=
  eq_of_heq ((cast_heq _ _).trans hw.symm)

theorem ofBuf_eq (x : StableHlo.TRef sig T) (v : x.ref.ty.Contents (Elt Ideal)) (w : T.Contents (Elt Ideal))
    (hw : HEq w v) : x.ofBuf v = w :=
  eq_of_heq ((cast_heq _ _).trans hw.symm)

theorem ofBuf_toBuf (x : StableHlo.TRef sig T) (v : T.Contents (Elt Ideal)) : x.ofBuf (x.toBuf v) = v :=
  eq_of_heq ((cast_heq _ _).trans (cast_heq _ _))

end

theorem at2_v14 : W2 m ρ c (Proc.devRef .tc main_v14) = val_main_v14 (F := Ideal) (m ((c : Thread nD τ).loc main_arg1)) := by
  have h12 := at1_v12 m ρ c
  have h13 := at1_v13 m ρ c
  have hc := at1_cst_2 m ρ c
  show StableHlo.after hostOps0_1 (W1 m ρ c) (Proc.devRef .tc main_v14) = _
  generalize W1 m ρ c = X at h12 h13 hc ⊢
  after_results_simp
  rw [h12, h13, hc]
  repeat (first
    | rw [ofBuf_eq (.of main_cst_2 : StableHlo.TRef sig ⟨S_, .f32⟩) _ _ HEq.rfl]
    | rw [toBuf_eq (.of main_cst_2 : StableHlo.TRef sig ⟨S_, .f32⟩) _ _ HEq.rfl]
    | rw [ofBuf_eq (.of main_call0_v0 : StableHlo.TRef sig ⟨S_, .f32⟩) _ _ HEq.rfl]
    | rw [toBuf_eq (.of main_call0_v0 : StableHlo.TRef sig ⟨S_, .f32⟩) _ _ HEq.rfl]
    | rw [ofBuf_eq (.of main_call0_v1 : StableHlo.TRef sig ⟨S100000, .f32⟩) _ _ HEq.rfl]
    | rw [toBuf_eq (.of main_call0_v1 : StableHlo.TRef sig ⟨S100000, .f32⟩) _ _ HEq.rfl]
    | rw [ofBuf_eq (.of main_v12 : StableHlo.TRef sig ⟨S100000, .i1⟩) _ _ HEq.rfl]
    | rw [toBuf_eq (.of main_v12 : StableHlo.TRef sig ⟨S100000, .i1⟩) _ _ HEq.rfl]
    | rw [ofBuf_eq (.of main_v13 : StableHlo.TRef sig ⟨S100000, .f32⟩) _ _ HEq.rfl]
    | rw [toBuf_eq (.of main_v13 : StableHlo.TRef sig ⟨S100000, .f32⟩) _ _ HEq.rfl]
    | rw [ofBuf_eq (.of main_v14 : StableHlo.TRef sig ⟨S100000, .f32⟩) _ _ HEq.rfl]
    | rw [toBuf_eq (.of main_v14 : StableHlo.TRef sig ⟨S100000, .f32⟩) _ _ HEq.rfl])
  rfl

theorem at2_v5 : W2 m ρ c (Proc.devRef .tc main_v5) = val_main_v5 (F := Ideal) (m ((c : Thread nD τ).loc main_arg1)) := by
  show StableHlo.after hostOps0_1 (StableHlo.after hostOps0 (W0 m ρ c)) (Proc.devRef .tc main_v5) = _
  after_results_simp
  rfl

theorem at2_v6 : W2 m ρ c (Proc.devRef .tc main_v6) = val_main_v6 (F := Ideal) (m ((c : Thread nD τ).loc main_arg1)) := by
  show StableHlo.after hostOps0_1 (StableHlo.after hostOps0 (W0 m ρ c)) (Proc.devRef .tc main_v6) = _
  after_results_simp
  rfl

/-! ## After the third: the edge weights; the first region's entry -/

theorem at3_v29 : W3 m ρ c (Proc.devRef .tc main_v29) = val_main_v29 (F := Ideal) (m ((c : Thread nD τ).loc main_arg1)) := by
  have h14 := at2_v14 m ρ c
  have h5 := at2_v5 m ρ c
  have h6 := at2_v6 m ρ c
  show StableHlo.after hostOps0_2 (W2 m ρ c) (Proc.devRef .tc main_v29) = _
  generalize W2 m ρ c = X at h14 h5 h6 ⊢
  after_results_simp
  rw [h14, h5, h6]
  rfl

theorem at3_v5 : W3 m ρ c (Proc.devRef .tc main_v5) = val_main_v5 (F := Ideal) (m ((c : Thread nD τ).loc main_arg1)) := by
  show StableHlo.after hostOps0_2 (StableHlo.after hostOps0_1 (StableHlo.after hostOps0 (W0 m ρ c))) (Proc.devRef .tc main_v5) = _
  after_results_simp
  rfl

theorem at3_v6 : W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp
  rfl

theorem at3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

theorem at3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp

theorem at3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

theorem at3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

theorem at3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

theorem at3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp

theorem at3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp

theorem at3_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp

theorem at3_arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp

theorem at3_arg10 : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  after_results_simp

end Cert.KernelIdeal.Fold

end
-- ==== Proof.Dense0.lean ====
/-
  The first dense layer: twenty row blocks of 5000 nodes, each multiplied by the whole 128 × 128 weight matrix.

  The body loads a block of the node features and the weights, rounds both to bf16 (the identity on the extended
  reals) and multiplies them on the matrix unit into a zero accumulator: at entry (p, q) of the block the sum over
  k of x (p, k) * w (k, q). Block t holds rows 5000 t … 5000 t + 4999 and the blocks tile the 100000 rows, so the
  array the region leaves is the whole product, row by row.
-/
import proofs.«181251_j41970420418158_1_alg».proof.Proof.Gen.KernelIdeal.Frame
import proofs.«181251_j41970420418158_1_alg».proof.Proof.LibDenseLayer

noncomputable section

namespace Cert.KernelIdeal.Dense0

open Idealize.ShloMosaic Idealize.ShloMosaic.TcCoe Idealize.ShloMosaic.ValueIdx Idealize.SL.Sem
open Cert.KernelIdeal Cert.KernelIdeal.Gen Cert.DenseSpec

/-- The body at entry (p, q) of its block. -/
theorem body_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact DotRecord.matmul_zero_apply dot_S5000x128_S128x128_S5000x128_1_0_0_1_n_n rfl rfl rfl rfl rfl rfl
      (truncf .bf16 x0 bitsLt_bf16_f32) (truncf .bf16 x1 bitsLt_bf16_f32) none p q

/-! ## From blocks to the array -/

variable (V : (c : Dev nD) → (b : Ref sig .tc) → Buf (Elt Ideal) ((c : Thread nD τ).loc b))

/-- The printed index maps over the grid: the feature block and the result block of point t are block t of their
    arrays; the weights are always the one whole block. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the layer's whole-array function of the arrays as the region finds them. -/
theorem flushed_eq (c : Dev nD) (t : Fin cfg0.N) :
    (dat0 V c).flushed 2 t
      = ((cfg0.win 2).blk t).view.read (Elt Ideal) (rowsTimes (M := 100000) (K := 128) (N := 128) (V c main_arg0) (V c main_arg3)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x128) zero2]
  obtain ⟨e0, e1, e2, e3, e4, e5⟩ := index_facts t
  have ht : t.val < 20 := lt_of_lt_of_eq t.isLt N_0
  funext j
  revert j
  show ∀ j : S5000x128.Idx, k0_pay1 (iblk0 V c 0 t) (iblk0 V c 1 t) j
      = (rowsTimes (M := 100000) (K := 128) (N := 128) (V c main_arg0) (V c main_arg3)) (((cfg0.win 2).blk t).view.emb j)
  intro j
  obtain ⟨p, q, rfl⟩ : ∃ (p : Fin 5000) (q : Fin 128), j = ix2 p q := ⟨j 0, j 1, eq_ix2 j⟩
  refine (body_apply _ _ p q).trans ?_
  have hemb : ((cfg0.win 2).blk t).view.emb (ix2 p q) = ix2 (⟨t.val * 5000 + p.val, by have := p.isLt; omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  have h0 : ∀ k : Fin 128, iblk0 V c 0 t (ix2 p k) = V c main_arg0 (ix2 (⟨t.val * 5000 + p.val, by have := p.isLt; omega⟩ : Fin 100000) k) := fun k => by
    show V c main_arg0 (((cfg0.win 0).blk t).view.emb (ix2 p k)) = _
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, iblk0 V c 1 t (ix2 k q) = V c main_arg3 (ix2 k q) := fun k => by
    show V c main_arg3 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [hemb, rowsTimes_ix2]
  exact Finset.sum_congr rfl fun k _ => by rw [h0 k, h1 k]

/-- An index of the result array is in point t's block iff each coordinate is in the block's range. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every row lies in some point's block: the point its number divided by the block height names. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 5000 < cfg0.N := by rw [show cfg0.N = 20 from N_0]; omega
  refine ⟨⟨(i 0).val / 5000, hlt⟩, flush0_2 _, ?_⟩
  rw [mem_block]
  obtain ⟨-, -, -, -, e4, e5⟩ := index_facts ⟨(i 0).val / 5000, hlt⟩
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    rw [e5]; omega

/-- The array the region leaves: the layer's whole-array function of the arrays it found. -/
theorem out (c : Dev nD) :
    (dat0 V c).arrAt 2 cfg0.N = rowsTimes (M := 100000) (K := 128) (N := 128) (V c main_arg0) (V c main_arg3) :=
  (dat0 V c).arrAt_eq_of_cover 2 (rowsTimes (M := 100000) (K := 128) (N := 128) (V c main_arg0) (V c main_arg3)) (fun t _ => flushed_eq V c t) cover

end Cert.KernelIdeal.Dense0

end
-- ==== Proof.FoldB.lean ====
/-
  The first dense layer's result, and the buffers when the second is entered.

  The first region leaves the product of the node features with the first weight matrix — the reference's
  dot_general of the same two arrays. The host operations that follow gather its rows along the sources, scale
  them by the edge weights, sum them into the targets and add the bias: the same operations, on the same values, as
  the reference's first convolution, so the buffer the second region reads holds the reference's term.
-/
import proofs.«181251_j41970420418158_1_alg».proof.Proof.FoldA
import proofs.«181251_j41970420418158_1_alg».proof.Proof.Dense0
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.ReferenceIdeal.ReadP Cert.DenseSpec

variable (m : (ℓ : Loc nD τ sig) → Buf (Elt Ideal) ℓ) (ρ : Dev nD → PrngReg) (c : Dev nD)

/-- The first region's result is the reference's product of the features with the first weights. -/
theorem at4_v30 : W4 m ρ c (Proc.devRef .tc main_v30) = val_main_v30 (F := Ideal) (m ((c : Thread nD τ).loc main_arg0)) (m ((c : Thread nD τ).loc main_arg3)) := by
  refine (W4_arr m ρ c 2).trans ((Dense0.out (V3 m ρ) c).trans ?_)
  show rowsTimes (M := 100000) (K := 128) (N := 128) (W3 m ρ c (Proc.devRef .tc main_arg0)) (W3 m ρ c (Proc.devRef .tc main_arg3)) = _
  rw [at3_arg0 m ρ c, at3_arg3 m ρ c]
  exact (hostDot_eq Cert.ReferenceIdeal.dot_S100000x128_S128x128_S100000x128_1_0_0_1_n_n rfl rfl rfl rfl rfl rfl _ _).symm

theorem at4_v5 : W4 m ρ c (Proc.devRef .tc main_v5) = val_main_v5 (F := Ideal) (m ((c : Thread nD τ).loc main_arg1)) :=
  (W4_of_ne m ρ c main_v5 (by decide)).trans (at3_v5 m ρ c)

theorem at4_v6 : W4 m ρ c (Proc.devRef .tc main_v6) = val_main_v6 (F := Ideal) (m ((c : Thread nD τ).loc main_arg1)) :=
  (W4_of_ne m ρ c main_v6 (by decide)).trans (at3_v6 m ρ c)

theorem at4_v29 : W4 m ρ c (Proc.devRef .tc main_v29) = val_main_v29 (F := Ideal) (m ((c : Thread nD τ).loc main_arg1)) :=
  (W4_of_ne m ρ c main_v29 (by decide)).trans (at3_v29 m ρ c)

theorem at4_arg2 : W4 m ρ c (Proc.devRef .tc main_arg2) = m ((c : Thread nD τ).loc main_arg2) :=
  (W4_of_ne m ρ c main_arg2 (by decide)).trans (at3_arg2 m ρ c)

theorem at4_arg4 : W4 m ρ c (Proc.devRef .tc main_arg4) = m ((c : Thread nD τ).loc main_arg4) :=
  (W4_of_ne m ρ c main_arg4 (by decide)).trans (at3_arg4 m ρ c)

theorem at4_arg5 : W4 m ρ c (Proc.devRef .tc main_arg5) = m ((c : Thread nD τ).loc main_arg5) :=
  (W4_of_ne m ρ c main_arg5 (by decide)).trans (at3_arg5 m ρ c)

theorem at4_arg6 : W4 m ρ c (Proc.devRef .tc main_arg6) = m ((c : Thread nD τ).loc main_arg6) :=
  (W4_of_ne m ρ c main_arg6 (by decide)).trans (at3_arg6 m ρ c)

theorem at4_arg7 : W4 m ρ c (Proc.devRef .tc main_arg7) = m ((c : Thread nD τ).loc main_arg7) :=
  (W4_of_ne m ρ c main_arg7 (by decide)).trans (at3_arg7 m ρ c)

theorem at4_arg8 : W4 m ρ c (Proc.devRef .tc main_arg8) = m ((c : Thread nD τ).loc main_arg8) :=
  (W4_of_ne m ρ c main_arg8 (by decide)).trans (at3_arg8 m ρ c)

theorem at4_arg9 : W4 m ρ c (Proc.devRef .tc main_arg9) = m ((c : Thread nD τ).loc main_arg9) :=
  (W4_of_ne m ρ c main_arg9 (by decide)).trans (at3_arg9 m ρ c)

theorem at4_arg10 : W4 m ρ c (Proc.devRef .tc main_arg10) = m ((c : Thread nD τ).loc main_arg10) :=
  (W4_of_ne m ρ c main_arg10 (by decide)).trans (at3_arg10 m ρ c)

/-- The first convolution's output, as the second region finds it, is the reference's. -/
theorem at5_v46 : W5 m ρ c (Proc.devRef .tc main_v46) = val_main_v46 (F := Ideal) (m ((c : Thread nD τ).loc main_arg0)) (m ((c : Thread nD τ).loc main_arg1)) (m ((c : Thread nD τ).loc main_arg3)) (m ((c : Thread nD τ).loc main_arg4)) := by
  show StableHlo.after hostOps1 (W4 m ρ c) (Proc.devRef .tc main_v46) = _
  after_results_simp
  rw [at4_v30 m ρ c, at4_v5 m ρ c, at4_v6 m ρ c, at4_v29 m ρ c, at4_arg4 m ρ c]
  rfl

theorem at5_v5 : W5 m ρ c (Proc.devRef .tc main_v5) = val_main_v5 (F := Ideal) (m ((c : Thread nD τ).loc main_arg1)) := by
  show StableHlo.after hostOps1 (W4 m ρ c) (Proc.devRef .tc main_v5) = _
  after_results_simp
  exact at4_v5 m ρ c

theorem at5_v6 : W5 m ρ c (Proc.devRef .tc main_v6) = val_main_v6 (F := Ideal) (m ((c : Thread nD τ).loc main_arg1)) := by
  show StableHlo.after hostOps1 (W4 m ρ c) (Proc.devRef .tc main_v6) = _
  after_results_simp
  exact at4_v6 m ρ c

theorem at5_v29 : W5 m ρ c (Proc.devRef .tc main_v29) = val_main_v29 (F := Ideal) (m ((c : Thread nD τ).loc main_arg1)) := by
  show StableHlo.after hostOps1 (W4 m ρ c) (Proc.devRef .tc main_v29) = _
  after_results_simp
  exact at4_v29 m ρ c

theorem at5_arg2 : W5 m ρ c (Proc.devRef .tc main_arg2) = m ((c : Thread nD τ).loc main_arg2) := by
  show StableHlo.after hostOps1 (W4 m ρ c) (Proc.devRef .tc main_arg2) = _
  after_results_simp
  exact at4_arg2 m ρ c

theorem at5_arg5 : W5 m ρ c (Proc.devRef .tc main_arg5) = m ((c : Thread nD τ).loc main_arg5) := by
  show StableHlo.after hostOps1 (W4 m ρ c) (Proc.devRef .tc main_arg5) = _
  after_results_simp
  exact at4_arg5 m ρ c

theorem at5_arg6 : W5 m ρ c (Proc.devRef .tc main_arg6) = m ((c : Thread nD τ).loc main_arg6) := by
  show StableHlo.after hostOps1 (W4 m ρ c) (Proc.devRef .tc main_arg6) = _
  after_results_simp
  exact at4_arg6 m ρ c

theorem at5_arg7 : W5 m ρ c (Proc.devRef .tc main_arg7) = m ((c : Thread nD τ).loc main_arg7) := by
  show StableHlo.after hostOps1 (W4 m ρ c) (Proc.devRef .tc main_arg7) = _
  after_results_simp
  exact at4_arg7 m ρ c

theorem at5_arg8 : W5 m ρ c (Proc.devRef .tc main_arg8) = m ((c : Thread nD τ).loc main_arg8) := by
  show StableHlo.after hostOps1 (W4 m ρ c) (Proc.devRef .tc main_arg8) = _
  after_results_simp
  exact at4_arg8 m ρ c

theorem at5_arg9 : W5 m ρ c (Proc.devRef .tc main_arg9) = m ((c : Thread nD τ).loc main_arg9) := by
  show StableHlo.after hostOps1 (W4 m ρ c) (Proc.devRef .tc main_arg9) = _
  after_results_simp
  exact at4_arg9 m ρ c

theorem at5_arg10 : W5 m ρ c (Proc.devRef .tc main_arg10) = m ((c : Thread nD τ).loc main_arg10) := by
  show StableHlo.after hostOps1 (W4 m ρ c) (Proc.devRef .tc main_arg10) = _
  after_results_simp
  exact at4_arg10 m ρ c

end Cert.KernelIdeal.Fold

end
-- ==== Proof.Dense1.lean ====
/-
  The second dense layer: as the first, with the features clamped at zero before the product.

  At entry (p, q) of block t the body computes the sum over k of max (x (p, k), 0) * w (k, q); the blocks tile the
  100000 rows, so the region leaves the product of the clamped features with the weights, row by row.
-/
import proofs.«181251_j41970420418158_1_alg».proof.Proof.Gen.KernelIdeal.Frame
import proofs.«181251_j41970420418158_1_alg».proof.Proof.LibDenseLayer

noncomputable section

namespace Cert.KernelIdeal.Dense1

open Idealize.ShloMosaic Idealize.ShloMosaic.TcCoe Idealize.ShloMosaic.ValueIdx Idealize.SL.Sem
open Cert.KernelIdeal Cert.KernelIdeal.Gen Cert.DenseSpec

/-- The body at entry (p, q) of its block. -/
theorem body_apply (x0 : Vec Ideal S5000x128 .f32) (x1 : Vec Ideal S128x128 .f32) (p : Fin 5000) (q : Fin 128) :
    k1_pay1 x0 x1 (ix2 p q) = ∑ k : Fin 128, max (x0 (ix2 p k)) (Ideal.ofBits .f32 0x00000000#32) * x1 (ix2 k q) := by
  unfold k1_pay1
  have hx : ∀ k : Fin 128, (truncf .bf16 (maximumf (shapeCast S5000x128 x0 shapeCasts_S5000x128_S5000x128) (broadcast S5000x128 (Scalar.ofBits .f32 0x00000000#32))) bitsLt_bf16_f32 : FVec Ideal S5000x128 .bf16) (ix2 p k) = max (x0 (ix2 p k)) (Ideal.ofBits .f32 0x00000000#32) := fun k => by
    show max ((shapeCast S5000x128 x0 shapeCasts_S5000x128_S5000x128) (ix2 p k)) (Ideal.ofBits .f32 0x00000000#32) = _
    rw [shapeCast_self]
  refine (DotRecord.matmul_zero_apply dot_S5000x128_S128x128_S5000x128_1_0_0_1_n_n rfl rfl rfl rfl rfl rfl
      (truncf .bf16 (maximumf (shapeCast S5000x128 x0 shapeCasts_S5000x128_S5000x128) (broadcast S5000x128 (Scalar.ofBits .f32 0x00000000#32))) bitsLt_bf16_f32) (truncf .bf16 x1 bitsLt_bf16_f32) none p q).trans ?_
  exact Finset.sum_congr rfl fun k _ => by rw [hx k]; rfl

/-! ## From blocks to the array -/

variable (V : (c : Dev nD) → (b : Ref sig .tc) → Buf (Elt Ideal) ((c : Thread nD τ).loc b))

/-- The printed index maps over the grid: the feature block and the result block of point t are block t of their
    arrays; the weights are always the one whole block. -/
theorem index_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the layer's whole-array function of the arrays as the region finds them. -/
theorem flushed_eq (c : Dev nD) (t : Fin cfg1.N) :
    (dat1 V c).flushed 2 t
      = ((cfg1.win 2).blk t).view.read (Elt Ideal) (rowsTimes (M := 100000) (K := 128) (N := 128) (relu (V c main_v46)) (V c main_arg5)) := by
  show (cfg1.win 2).cut (grid1.coords t) ((dat1 V c).after 2 t) = _
  rw [after1_2]
  unfold out1_2
  rw [View.canon_unit_zero zero2]
  simp only [View.ld_unit_zero (S := S5000x128) zero2, View.ld_unit_zero (S := S128x128) zero2]
  obtain ⟨e0, e1, e2, e3, e4, e5⟩ := index_facts t
  have ht : t.val < 20 := lt_of_lt_of_eq t.isLt N_1
  funext j
  revert j
  show ∀ j : S5000x128.Idx, k1_pay1 (iblk1 V c 0 t) (iblk1 V c 1 t) j
      = (rowsTimes (M := 100000) (K := 128) (N := 128) (relu (V c main_v46)) (V c main_arg5)) (((cfg1.win 2).blk t).view.emb j)
  intro j
  obtain ⟨p, q, rfl⟩ : ∃ (p : Fin 5000) (q : Fin 128), j = ix2 p q := ⟨j 0, j 1, eq_ix2 j⟩
  refine (body_apply _ _ p q).trans ?_
  have hemb : ((cfg1.win 2).blk t).view.emb (ix2 p q) = ix2 (⟨t.val * 5000 + p.val, by have := p.isLt; omega⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  have h0 : ∀ k : Fin 128, iblk1 V c 0 t (ix2 p k) = V c main_v46 (ix2 (⟨t.val * 5000 + p.val, by have := p.isLt; omega⟩ : Fin 100000) k) := fun k => by
    show V c main_v46 (((cfg1.win 0).blk t).view.emb (ix2 p k)) = _
    refine congrArg _ ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ∀ k : Fin 128, iblk1 V c 1 t (ix2 k q) = V c main_arg5 (ix2 k q) := fun k => by
    show V c main_arg5 (((cfg1.win 1).blk t).view.emb (ix2 k q)) = _
    refine congrArg _ ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  rw [hemb, rowsTimes_ix2]
  exact Finset.sum_congr rfl fun k _ => by rw [h0 k, h1 k]; rfl

/-- An index of the result array is in point t's block iff each coordinate is in the block's range. -/
theorem mem_block (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Every row lies in some point's block: the point its number divided by the block height names. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 5000 < cfg1.N := by rw [show cfg1.N = 20 from N_1]; omega
  refine ⟨⟨(i 0).val / 5000, hlt⟩, flush1_2 _, ?_⟩
  rw [mem_block]
  obtain ⟨-, -, -, -, e4, e5⟩ := index_facts ⟨(i 0).val / 5000, hlt⟩
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 128 ≤ (i 1).val
      ∧ (i 1).val < win1_2.index ⟨(i 0).val / 5000, hlt⟩ (1 : Fin 2) * 128 + 128
    rw [e5]; omega

/-- The array the region leaves: the layer's whole-array function of the arrays it found. -/
theorem out (c : Dev nD) :
    (dat1 V c).arrAt 2 cfg1.N = rowsTimes (M := 100000) (K := 128) (N := 128) (relu (V c main_v46)) (V c main_arg5) :=
  (dat1 V c).arrAt_eq_of_cover 2 (rowsTimes (M := 100000) (K := 128) (N := 128) (relu (V c main_v46)) (V c main_arg5)) (fun t _ => flushed_eq V c t) cover

end Cert.KernelIdeal.Dense1

end
-- ==== Proof.RefShare.lean ====
/-
  The reference computes the edge weights twice, once per graph convolution, by the same operations on the same
  edge list. The second copy of each quantity — sources and targets with the self loops appended, and the per-edge
  weight — is the first: the two terms are the same operations applied to the same argument.
-/
import proofs.«181251_j41970420418158_1_alg».proof.Proof.RefRead

set_option maxRecDepth 16384

noncomputable section

namespace Cert.ReferenceIdeal.Share

open Idealize.ShloMosaic Cert.ReferenceIdeal Cert.ReferenceIdeal.ReadP

variable {F : FTy → Type} [FloatOps F]

/-- The second convolution's source vector is the first's. -/
theorem sources (x1 : (⟨S2x1600000, .i32⟩ : BufTy).Contents (Elt F)) :
    val_main_v49 (F := F) x1 = val_main_v5 (F := F) x1 := rfl

/-- The second convolution's target vector is the first's. -/
theorem targets (x1 : (⟨S2x1600000, .i32⟩ : BufTy).Contents (Elt F)) :
    val_main_v50 (F := F) x1 = val_main_v6 (F := F) x1 := rfl

/-- The second convolution's edge weights are the first's. -/
theorem weights (x1 : (⟨S2x1600000, .i32⟩ : BufTy).Contents (Elt F)) :
    val_main_v73 (F := F) x1 = val_main_v29 (F := F) x1 := rfl

end Cert.ReferenceIdeal.Share

end
-- ==== Proof.FoldC.lean ====
/-
  The second dense layer's result, and the buffers when the third is entered.

  The second region leaves the product of the first convolution's output, clamped at zero, with the second weight
  matrix: the reference's relu followed by its dot_general. The host operations that follow are the reference's
  second convolution, which recomputes the index vectors and the edge weights the kernel's program reuses; the
  recomputed ones are the same terms. The bias of the third layer is reshaped to a one-row matrix.
-/
import proofs.«181251_j41970420418158_1_alg».proof.Proof.FoldB
import proofs.«181251_j41970420418158_1_alg».proof.Proof.Dense1
import proofs.«181251_j41970420418158_1_alg».proof.Proof.RefShare
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.ReferenceIdeal.ReadP Cert.DenseSpec

variable (m : (ℓ : Loc nD τ sig) → Buf (Elt Ideal) ℓ) (ρ : Dev nD → PrngReg) (c : Dev nD)

/-- The second region's result is the reference's product of the clamped first convolution with the second weights. -/
theorem at6_v47 : W6 m ρ c (Proc.devRef .tc main_v47) = val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 2).trans ((Dense1.out (V5 m ρ) c).trans ?_)
  show rowsTimes (M := 100000) (K := 128) (N := 128) (relu (W5 m ρ c (Proc.devRef .tc main_v46))) (W5 m ρ c (Proc.devRef .tc main_arg5)) = _
  rw [at5_v46 m ρ c, at5_arg5 m ρ c]
  exact ((hostDot_eq Cert.ReferenceIdeal.dot_S100000x128_S128x128_S100000x128_1_0_0_1_n_n rfl rfl rfl rfl rfl rfl _ _).trans
    (congrArg (fun X => rowsTimes (M := 100000) (K := 128) (N := 128) X (m ((c : Thread nD τ).loc main_arg5))) (hostRelu_eq _ _))).symm

theorem at6_v5 : W6 m ρ c (Proc.devRef .tc main_v5) = val_main_v49 (F := Ideal) (m ((c : Thread nD τ).loc main_arg1)) :=
  (W6_of_ne m ρ c main_v5 (by decide)).trans ((at5_v5 m ρ c).trans (Cert.ReferenceIdeal.Share.sources _).symm)

theorem at6_v6 : W6 m ρ c (Proc.devRef .tc main_v6) = val_main_v50 (F := Ideal) (m ((c : Thread nD τ).loc main_arg1)) :=
  (W6_of_ne m ρ c main_v6 (by decide)).trans ((at5_v6 m ρ c).trans (Cert.ReferenceIdeal.Share.targets _).symm)

theorem at6_v29 : W6 m ρ c (Proc.devRef .tc main_v29) = val_main_v73 (F := Ideal) (m ((c : Thread nD τ).loc main_arg1)) :=
  (W6_of_ne m ρ c main_v29 (by decide)).trans ((at5_v29 m ρ c).trans (Cert.ReferenceIdeal.Share.weights _).symm)

theorem at6_arg2 : W6 m ρ c (Proc.devRef .tc main_arg2) = m ((c : Thread nD τ).loc main_arg2) :=
  (W6_of_ne m ρ c main_arg2 (by decide)).trans (at5_arg2 m ρ c)

theorem at6_arg6 : W6 m ρ c (Proc.devRef .tc main_arg6) = m ((c : Thread nD τ).loc main_arg6) :=
  (W6_of_ne m ρ c main_arg6 (by decide)).trans (at5_arg6 m ρ c)

theorem at6_arg7 : W6 m ρ c (Proc.devRef .tc main_arg7) = m ((c : Thread nD τ).loc main_arg7) :=
  (W6_of_ne m ρ c main_arg7 (by decide)).trans (at5_arg7 m ρ c)

theorem at6_arg8 : W6 m ρ c (Proc.devRef .tc main_arg8) = m ((c : Thread nD τ).loc main_arg8) :=
  (W6_of_ne m ρ c main_arg8 (by decide)).trans (at5_arg8 m ρ c)

theorem at6_arg9 : W6 m ρ c (Proc.devRef .tc main_arg9) = m ((c : Thread nD τ).loc main_arg9) :=
  (W6_of_ne m ρ c main_arg9 (by decide)).trans (at5_arg9 m ρ c)

theorem at6_arg10 : W6 m ρ c (Proc.devRef .tc main_arg10) = m ((c : Thread nD τ).loc main_arg10) :=
  (W6_of_ne m ρ c main_arg10 (by decide)).trans (at5_arg10 m ρ c)

/-- The second convolution's output, as the third region finds it, is the reference's. -/
theorem at7_v63 : W7 m ρ c (Proc.devRef .tc main_v63) = val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W6 m ρ c) (Proc.devRef .tc main_v63) = _
  after_results_simp
  rw [at6_v47 m ρ c, at6_v5 m ρ c, at6_v6 m ρ c, at6_v29 m ρ c, at6_arg6 m ρ c]
  rfl

/-- The third layer's bias as the third region finds it: the bias vector as a one-row matrix. -/
theorem at7_v64 : W7 m ρ c (Proc.devRef .tc main_v64) = asRow (N := 128) (m ((c : Thread nD τ).loc main_arg8)) := by
  show StableHlo.after hostOps2 (W6 m ρ c) (Proc.devRef .tc main_v64) = _
  after_results_simp
  rw [at6_arg8 m ρ c]
  exact reshapeRow_eq (N := 128) (m ((c : Thread nD τ).loc main_arg8)) _

theorem at7_arg2 : W7 m ρ c (Proc.devRef .tc main_arg2) = m ((c : Thread nD τ).loc main_arg2) := by
  show StableHlo.after hostOps2 (W6 m ρ c) (Proc.devRef .tc main_arg2) = _
  after_results_simp
  exact at6_arg2 m ρ c

theorem at7_arg7 : W7 m ρ c (Proc.devRef .tc main_arg7) = m ((c : Thread nD τ).loc main_arg7) := by
  show StableHlo.after hostOps2 (W6 m ρ c) (Proc.devRef .tc main_arg7) = _
  after_results_simp
  exact at6_arg7 m ρ c

theorem at7_arg9 : W7 m ρ c (Proc.devRef .tc main_arg9) = m ((c : Thread nD τ).loc main_arg9) := by
  show StableHlo.after hostOps2 (W6 m ρ c) (Proc.devRef .tc main_arg9) = _
  after_results_simp
  exact at6_arg9 m ρ c

theorem at7_arg10 : W7 m ρ c (Proc.devRef .tc main_arg10) = m ((c : Thread nD τ).loc main_arg10) := by
  show StableHlo.after hostOps2 (W6 m ρ c) (Proc.devRef .tc main_arg10) = _
  after_results_simp
  exact at6_arg10 m ρ c

end Cert.KernelIdeal.Fold

end
-- ==== Proof.Dense2.lean ====
/-
  The third dense layer: features clamped at zero, multiplied by the weights, a bias row added to every row.

  At entry (p, q) of block t the body computes the sum over k of max (x (p, k), 0) * w (k, q), plus the bias at q
  (the bias is a one-row matrix, the same block at every point). The blocks tile the 100000 rows.
-/
import proofs.«181251_j41970420418158_1_alg».proof.Proof.Gen.KernelIdeal.Frame
import proofs.«181251_j41970420418158_1_alg».proof.Proof.LibDenseLayer

noncomputable section

namespace Cert.KernelIdeal.Dense2

open Idealize.ShloMosaic Idealize.ShloMosaic.TcCoe Idealize.ShloMosaic.ValueIdx Idealize.SL.Sem
open Cert.KernelIdeal Cert.KernelIdeal.Gen Cert.DenseSpec

/-- The body at entry (p, q) of its block. -/
theorem body_apply (x0 : Vec Ideal S5000x128 .f32) (x1 : Vec Ideal S128x128 .f32) (x2 : Vec Ideal S1x128 .f32) (p : Fin 5000) (q : Fin 128) :
    k2_pay1 x0 x1 x2 (ix2 p q) = (∑ k : Fin 128, max (x0 (ix2 p k)) (Ideal.ofBits .f32 0x00000000#32) * x1 (ix2 k q)) + x2 (ix2 (0 : Fin 1) q) := by
  unfold k2_pay1
  have hx : ∀ k : Fin 128, (truncf .bf16 (maximumf (shapeCast S5000x128 x0 shapeCasts_S5000x128_S5000x128) (broadcast S5000x128 (Scalar.ofBits .f32 0x00000000#32))) bitsLt_bf16_f32 : FVec Ideal S5000x128 .bf16) (ix2 p k) = max (x0 (ix2 p k)) (Ideal.ofBits .f32 0x00000000#32) := fun k => by
    show max ((shapeCast S5000x128 x0 shapeCasts_S5000x128_S5000x128) (ix2 p k)) (Ideal.ofBits .f32 0x00000000#32) = _
    rw [shapeCast_self]
  have hb : broadcastTo S5000x128 (shapeCast S1x128 x2 shapeCasts_S1x128_S1x128) broadcasts_S1x128_S5000x128 (ix2 p q) = x2 (ix2 (0 : Fin 1) q) := by
    rw [DotRecord.broadcastTo_1b_ab_apply _ broadcasts_S1x128_S5000x128 p q, shapeCast_self]
  show matmul (F := Ideal) dot_S5000x128_S128x128_S5000x128_1_0_0_1_n_n none (truncf .bf16 (maximumf (shapeCast S5000x128 x0 shapeCasts_S5000x128_S5000x128) (broadcast S5000x128 (Scalar.ofBits .f32 0x00000000#32))) bitsLt_bf16_f32) (truncf .bf16 x1 bitsLt_bf16_f32) (constant S5000x128 .f32 0x00000000#32) (ix2 p q)
      + broadcastTo S5000x128 (shapeCast S1x128 x2 shapeCasts_S1x128_S1x128) broadcasts_S1x128_S5000x128 (ix2 p q) = _
  rw [hb]
  refine congrArg (· + x2 (ix2 (0 : Fin 1) q)) ?_
  refine (DotRecord.matmul_zero_apply dot_S5000x128_S128x128_S5000x128_1_0_0_1_n_n rfl rfl rfl rfl rfl rfl
      (truncf .bf16 (maximumf (shapeCast S5000x128 x0 shapeCasts_S5000x128_S5000x128) (broadcast S5000x128 (Scalar.ofBits .f32 0x00000000#32))) bitsLt_bf16_f32) (truncf .bf16 x1 bitsLt_bf16_f32) none p q).trans ?_
  exact Finset.sum_congr rfl fun k _ => by rw [hx k]; rfl

/-! ## From blocks to the array -/

variable (V : (c : Dev nD) → (b : Ref sig .tc) → Buf (Elt Ideal) ((c : Thread nD τ).loc b))

/-- The printed index maps over the grid: the feature block and the result block of point t are block t of their
    arrays; the weights and the bias are always the one whole block. -/
theorem index_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- What point t writes back is block t of the layer's whole-array function of the arrays as the region finds them. -/
theorem flushed_eq (c : Dev nD) (t : Fin cfg2.N) :
    (dat2 V c).flushed 3 t
      = ((cfg2.win 3).blk t).view.read (Elt Ideal) (addRow (M := 100000) (N := 128) (rowsTimes (M := 100000) (K := 128) (N := 128) (relu (V c main_v63)) (V c main_arg7)) (V c main_v64)) := by
  show (cfg2.win 3).cut (grid2.coords t) ((dat2 V c).after 3 t) = _
  rw [after2_3]
  unfold out2_3
  rw [View.canon_unit_zero zero2]
  simp only [View.ld_unit_zero (S := S5000x128) zero2, View.ld_unit_zero (S := S128x128) zero2, View.ld_unit_zero (S := S1x128) zero2]
  obtain ⟨e0, e1, e2, e3, e4, e5, e6, e7⟩ := index_facts t
  have ht : t.val < 20 := lt_of_lt_of_eq t.isLt N_2
  funext j
  revert j
  show ∀ j : S5000x128.Idx, k2_pay1 (iblk2 V c 0 t) (iblk2 V c 1 t) (iblk2 V c 2 t) j
      = (addRow (M := 100000) (N := 128) (rowsTimes (M := 100000) (K := 128) (N := 128) (relu (V c main_v63)) (V c main_arg7)) (V c main_v64)) (((cfg2.win 3).blk t).view.emb j)
  intro j
  obtain ⟨p, q, rfl⟩ : ∃ (p : Fin 5000) (q : Fin 128), j = ix2 p q := ⟨j 0, j 1, eq_ix2 j⟩
  refine (body_apply _ _ _ p q).trans ?_
  have hemb : ((cfg2.win 3).blk t).view.emb (ix2 p q) = ix2 (⟨t.val * 5000 + p.val, by have := p.isLt; omega⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  have h0 : ∀ k : Fin 128, iblk2 V c 0 t (ix2 p k) = V c main_v63 (ix2 (⟨t.val * 5000 + p.val, by have := p.isLt; omega⟩ : Fin 100000) k) := fun k => by
    show V c main_v63 (((cfg2.win 0).blk t).view.emb (ix2 p k)) = _
    refine congrArg _ ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, iblk2 V c 1 t (ix2 k q) = V c main_arg7 (ix2 k q) := fun k => by
    show V c main_arg7 (((cfg2.win 1).blk t).view.emb (ix2 k q)) = _
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have h2 : iblk2 V c 2 t (ix2 (0 : Fin 1) q) = V c main_v64 (ix2 (0 : Fin 1) q) := by
    show V c main_v64 (((cfg2.win 2).blk t).view.emb (ix2 (0 : Fin 1) q)) = _
    refine congrArg _ ?_
    funext a; apply Fin.ext
    match a with
    | ⟨0, _⟩ => show win2_2.index t (0 : Fin 2) * 1 + 1 * (0 : Fin 1).val = (0 : Fin 1).val; omega
    | ⟨1, _⟩ => show win2_2.index t (1 : Fin 2) * 128 + 1 * q.val = q.val; omega
  rw [hemb, addRow_ix2, rowsTimes_ix2, h2]
  exact congrArg (· + V c main_v64 (ix2 (0 : Fin 1) q)) (Finset.sum_congr rfl fun k _ => by rw [h0 k, h1 k]; rfl)

/-- An index of the result array is in point t's block iff each coordinate is in the block's range. -/
theorem mem_block (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v65).slice (win2_3.rect t)).set ↔ _
  rw [View.set_slice_whole, Rect.mem_set_unit]
  exact Iff.rfl

/-- Every row lies in some point's block: the point its number divided by the block height names. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hlt : (i 0).val / 5000 < cfg2.N := by rw [show cfg2.N = 20 from N_2]; omega
  refine ⟨⟨(i 0).val / 5000, hlt⟩, flush2_3 _, ?_⟩
  rw [mem_block]
  obtain ⟨-, -, -, -, -, -, e6, e7⟩ := index_facts ⟨(i 0).val / 5000, hlt⟩
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, hlt⟩ (1 : Fin 2) * 128 ≤ (i 1).val
      ∧ (i 1).val < win2_3.index ⟨(i 0).val / 5000, hlt⟩ (1 : Fin 2) * 128 + 128
    rw [e7]; omega

/-- The array the region leaves: the layer's whole-array function of the arrays it found. -/
theorem out (c : Dev nD) :
    (dat2 V c).arrAt 3 cfg2.N = addRow (M := 100000) (N := 128) (rowsTimes (M := 100000) (K := 128) (N := 128) (relu (V c main_v63)) (V c main_arg7)) (V c main_v64) :=
  (dat2 V c).arrAt_eq_of_cover 3 (addRow (M := 100000) (N := 128) (rowsTimes (M := 100000) (K := 128) (N := 128) (relu (V c main_v63)) (V c main_arg7)) (V c main_v64)) (fun t _ => flushed_eq V c t) cover

end Cert.KernelIdeal.Dense2

end
-- ==== Proof.FoldD.lean ====
/-
  The third dense layer's result, the mean pooling, and the buffers when the last layer is entered.

  The third region leaves the second convolution's output, clamped at zero, times the third weight matrix, plus the
  bias row: the reference's relu, dot_general and broadcast sum. The host then sums the rows of each graph and
  divides by the graph's node count (at least one): the reference's operations on the same values.
-/
import proofs.«181251_j41970420418158_1_alg».proof.Proof.FoldC
import proofs.«181251_j41970420418158_1_alg».proof.Proof.Dense2
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.ReferenceIdeal.ReadP Cert.DenseSpec

variable (m : (ℓ : Loc nD τ sig) → Buf (Elt Ideal) ℓ) (ρ : Dev nD → PrngReg) (c : Dev nD)

/-- The third region's result is the reference's third layer. -/
theorem at8_v65 : W8 m ρ c (Proc.devRef .tc main_v65) = val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 3).trans ((Dense2.out (V7 m ρ) c).trans ?_)
  show addRow (M := 100000) (N := 128) (rowsTimes (M := 100000) (K := 128) (N := 128) (relu (W7 m ρ c (Proc.devRef .tc main_v63))) (W7 m ρ c (Proc.devRef .tc main_arg7))) (W7 m ρ c (Proc.devRef .tc main_v64)) = _
  rw [at7_v63 m ρ c, at7_arg7 m ρ c, at7_v64 m ρ c]
  exact ((hostBias_eq (M := 100000) (N := 128) _ (m ((c : Thread nD τ).loc main_arg8)) _ _).trans
    (congrArg (fun X => addRow (M := 100000) (N := 128) X (asRow (N := 128) (m ((c : Thread nD τ).loc main_arg8))))
      ((hostDot_eq Cert.ReferenceIdeal.dot_S100000x128_S128x128_S100000x128_1_0_0_1_n_n rfl rfl rfl rfl rfl rfl _ _).trans
        (congrArg (fun X => rowsTimes (M := 100000) (K := 128) (N := 128) X (m ((c : Thread nD τ).loc main_arg7))) (hostRelu_eq _ _))))).symm

theorem at8_arg2 : W8 m ρ c (Proc.devRef .tc main_arg2) = m ((c : Thread nD τ).loc main_arg2) :=
  (W8_of_ne m ρ c main_arg2 (by decide)).trans (at7_arg2 m ρ c)

theorem at8_arg9 : W8 m ρ c (Proc.devRef .tc main_arg9) = m ((c : Thread nD τ).loc main_arg9) :=
  (W8_of_ne m ρ c main_arg9 (by decide)).trans (at7_arg9 m ρ c)

theorem at8_arg10 : W8 m ρ c (Proc.devRef .tc main_arg10) = m ((c : Thread nD τ).loc main_arg10) :=
  (W8_of_ne m ρ c main_arg10 (by decide)).trans (at7_arg10 m ρ c)

/-- The graph embeddings — the first result — as the last region finds them: the reference's. -/
theorem at9_v77 : W9 m ρ c (Proc.devRef .tc main_v77) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W8 m ρ c) (Proc.devRef .tc main_v77) = _
  after_results_simp
  rw [at8_v65 m ρ c, at8_arg2 m ρ c]
  rfl

/-- The last layer's bias as the last region finds it: the bias vector as a one-row matrix. -/
theorem at9_v78 : W9 m ρ c (Proc.devRef .tc main_v78) = asRow (N := 10) (m ((c : Thread nD τ).loc main_arg10)) := by
  show StableHlo.after hostOps3 (W8 m ρ c) (Proc.devRef .tc main_v78) = _
  after_results_simp
  rw [at8_arg10 m ρ c]
  exact reshapeRow_eq (N := 10) (m ((c : Thread nD τ).loc main_arg10)) _

theorem at9_arg9 : W9 m ρ c (Proc.devRef .tc main_arg9) = m ((c : Thread nD τ).loc main_arg9) := by
  show StableHlo.after hostOps3 (W8 m ρ c) (Proc.devRef .tc main_arg9) = _
  after_results_simp
  exact at8_arg9 m ρ c

end Cert.KernelIdeal.Fold

end
-- ==== Proof.Dense3.lean ====
/-
  The last dense layer: the 512 graph embeddings times the 128 × 10 weights plus a bias row, in one block.

  The grid has one point and every window is its whole array; at entry (p, q) the body computes the sum over k of
  x (p, k) * w (k, q) plus the bias at q.
-/
import proofs.«181251_j41970420418158_1_alg».proof.Proof.Gen.KernelIdeal.Frame
import proofs.«181251_j41970420418158_1_alg».proof.Proof.LibDenseLayer

noncomputable section

namespace Cert.KernelIdeal.Dense3

open Idealize.ShloMosaic Idealize.ShloMosaic.TcCoe Idealize.ShloMosaic.ValueIdx Idealize.SL.Sem
open Cert.KernelIdeal Cert.KernelIdeal.Gen Cert.DenseSpec

/-- The body at entry (p, q) of its block. -/
theorem body_apply (x0 : Vec Ideal S512x128 .f32) (x1 : Vec Ideal S128x10 .f32) (x2 : Vec Ideal S1x10 .f32) (p : Fin 512) (q : Fin 10) :
    k3_pay1 x0 x1 x2 (ix2 p q) = (∑ k : Fin 128, x0 (ix2 p k) * x1 (ix2 k q)) + x2 (ix2 (0 : Fin 1) q) := by
  unfold k3_pay1
  have hx : ∀ k : Fin 128, (truncf .bf16 (shapeCast S512x128 x0 shapeCasts_S512x128_S512x128) bitsLt_bf16_f32 : FVec Ideal S512x128 .bf16) (ix2 p k) = x0 (ix2 p k) := fun k => by
    show (shapeCast S512x128 x0 shapeCasts_S512x128_S512x128) (ix2 p k) = _
    rw [shapeCast_self]
  have hb : broadcastTo S512x10 (shapeCast S1x10 x2 shapeCasts_S1x10_S1x10) broadcasts_S1x10_S512x10 (ix2 p q) = x2 (ix2 (0 : Fin 1) q) := by
    rw [DotRecord.broadcastTo_1b_ab_apply _ broadcasts_S1x10_S512x10 p q, shapeCast_self]
  show matmul (F := Ideal) dot_S512x128_S128x10_S512x10_1_0_0_1_n_n none (truncf .bf16 (shapeCast S512x128 x0 shapeCasts_S512x128_S512x128) bitsLt_bf16_f32) (truncf .bf16 x1 bitsLt_bf16_f32) (constant S512x10 .f32 0x00000000#32) (ix2 p q)
      + broadcastTo S512x10 (shapeCast S1x10 x2 shapeCasts_S1x10_S1x10) broadcasts_S1x10_S512x10 (ix2 p q) = _
  rw [hb]
  refine congrArg (· + x2 (ix2 (0 : Fin 1) q)) ?_
  refine (DotRecord.matmul_zero_apply dot_S512x128_S128x10_S512x10_1_0_0_1_n_n rfl rfl rfl rfl rfl rfl
      (truncf .bf16 (shapeCast S512x128 x0 shapeCasts_S512x128_S512x128) bitsLt_bf16_f32) (truncf .bf16 x1 bitsLt_bf16_f32) none p q).trans ?_
  exact Finset.sum_congr rfl fun k _ => by rw [hx k]; rfl

/-! ## From blocks to the array -/

variable (V : (c : Dev nD) → (b : Ref sig .tc) → Buf (Elt Ideal) ((c : Thread nD τ).loc b))

/-- The printed index maps over the grid: the feature block and the result block of point t are block t of their
    arrays; the weights and the bias are always the one whole block. -/
theorem index_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- What point t writes back is block t of the layer's whole-array function of the arrays as the region finds them. -/
theorem flushed_eq (c : Dev nD) (t : Fin cfg3.N) :
    (dat3 V c).flushed 3 t
      = ((cfg3.win 3).blk t).view.read (Elt Ideal) (addRow (M := 512) (N := 10) (rowsTimes (M := 512) (K := 128) (N := 10) (V c main_v77) (V c main_arg9)) (V c main_v78)) := by
  show (cfg3.win 3).cut (grid3.coords t) ((dat3 V c).after 3 t) = _
  rw [after3_3]
  unfold out3_3
  rw [View.canon_unit_zero zero2]
  simp only [View.ld_unit_zero (S := S512x128) zero2, View.ld_unit_zero (S := S128x10) zero2, View.ld_unit_zero (S := S1x10) zero2]
  obtain ⟨e0, e1, e2, e3, e4, e5, e6, e7⟩ := index_facts t
  have ht : t.val < 1 := lt_of_lt_of_eq t.isLt N_3
  funext j
  revert j
  show ∀ j : S512x10.Idx, k3_pay1 (iblk3 V c 0 t) (iblk3 V c 1 t) (iblk3 V c 2 t) j
      = (addRow (M := 512) (N := 10) (rowsTimes (M := 512) (K := 128) (N := 10) (V c main_v77) (V c main_arg9)) (V c main_v78)) (((cfg3.win 3).blk t).view.emb j)
  intro j
  obtain ⟨p, q, rfl⟩ : ∃ (p : Fin 512) (q : Fin 10), j = ix2 p q := ⟨j 0, j 1, eq_ix2 j⟩
  refine (body_apply _ _ _ p q).trans ?_
  have hemb : ((cfg3.win 3).blk t).view.emb (ix2 p q) = ix2 (⟨p.val, by have := p.isLt; omega⟩ : Fin 512) q := by
    funext a; apply Fin.ext
    match a with
    | ⟨0, _⟩ => show win3_3.index t (0 : Fin 2) * 512 + 1 * p.val = p.val; omega
    | ⟨1, _⟩ => show win3_3.index t (1 : Fin 2) * 10 + 1 * q.val = q.val; omega
  have h0 : ∀ k : Fin 128, iblk3 V c 0 t (ix2 p k) = V c main_v77 (ix2 (⟨p.val, by have := p.isLt; omega⟩ : Fin 512) k) := fun k => by
    show V c main_v77 (((cfg3.win 0).blk t).view.emb (ix2 p k)) = _
    refine congrArg _ ?_
    funext a; apply Fin.ext
    match a with
    | ⟨0, _⟩ => show win3_0.index t (0 : Fin 2) * 512 + 1 * p.val = p.val; omega
    | ⟨1, _⟩ => show win3_0.index t (1 : Fin 2) * 128 + 1 * k.val = k.val; omega
  have h1 : ∀ k : Fin 128, iblk3 V c 1 t (ix2 k q) = V c main_arg9 (ix2 k q) := fun k => by
    show V c main_arg9 (((cfg3.win 1).blk t).view.emb (ix2 k q)) = _
    refine congrArg _ ?_
    funext a; apply Fin.ext
    match a with
    | ⟨0, _⟩ => show win3_1.index t (0 : Fin 2) * 128 + 1 * k.val = k.val; omega
    | ⟨1, _⟩ => show win3_1.index t (1 : Fin 2) * 10 + 1 * q.val = q.val; omega
  have h2 : iblk3 V c 2 t (ix2 (0 : Fin 1) q) = V c main_v78 (ix2 (0 : Fin 1) q) := by
    show V c main_v78 (((cfg3.win 2).blk t).view.emb (ix2 (0 : Fin 1) q)) = _
    refine congrArg _ ?_
    funext a; apply Fin.ext
    match a with
    | ⟨0, _⟩ => show win3_2.index t (0 : Fin 2) * 1 + 1 * (0 : Fin 1).val = (0 : Fin 1).val; omega
    | ⟨1, _⟩ => show win3_2.index t (1 : Fin 2) * 10 + 1 * q.val = q.val; omega
  rw [hemb, addRow_ix2, rowsTimes_ix2, h2]
  exact congrArg (· + V c main_v78 (ix2 (0 : Fin 1) q)) (Finset.sum_congr rfl fun k _ => by rw [h0 k, h1 k])

/-- An index of the result array is in point t's block iff each coordinate is in the block's range. -/
theorem mem_block (t : Fin cfg3.N) (i : S512x10.Idx) :
    i ∈ ((cfg3.win 3).blk t).view.set ↔ ∀ a : Fin 2, win3_3.index t a * S512x10.size a ≤ (i a).val
      ∧ (i a).val < win3_3.index t a * S512x10.size a + S512x10.size a := by
  show i ∈ ((View.whole main_v79).slice (win3_3.rect t)).set ↔ _
  rw [View.set_slice_whole, Rect.mem_set_unit]
  exact Iff.rfl

/-- Every row lies in some point's block: the point its number divided by the block height names. -/
theorem cover (i : S512x10.Idx) :
    ∃ t : Fin cfg3.N, (cfg3.win 3).flush t = true ∧ i ∈ ((cfg3.win 3).blk t).view.set := by
  have hi0 : (i 0).val < 512 := (i 0).isLt
  have hi1 : (i 1).val < 10 := (i 1).isLt
  have hlt : 0 < cfg3.N := by rw [show cfg3.N = 1 from N_3]; omega
  refine ⟨⟨0, hlt⟩, flush3_3 _, ?_⟩
  rw [mem_block]
  obtain ⟨-, -, -, -, -, -, e6, e7⟩ := index_facts ⟨0, hlt⟩
  intro a
  match a with
  | ⟨0, _⟩ =>
    show win3_3.index ⟨0, hlt⟩ (0 : Fin 2) * 512 ≤ (i 0).val
      ∧ (i 0).val < win3_3.index ⟨0, hlt⟩ (0 : Fin 2) * 512 + 512
    rw [e6]; show 0 * 512 ≤ (i 0).val ∧ (i 0).val < 0 * 512 + 512; omega
  | ⟨1, _⟩ =>
    show win3_3.index ⟨0, hlt⟩ (1 : Fin 2) * 10 ≤ (i 1).val
      ∧ (i 1).val < win3_3.index ⟨0, hlt⟩ (1 : Fin 2) * 10 + 10
    rw [e7]; omega

/-- The array the region leaves: the layer's whole-array function of the arrays it found. -/
theorem out (c : Dev nD) :
    (dat3 V c).arrAt 3 cfg3.N = addRow (M := 512) (N := 10) (rowsTimes (M := 512) (K := 128) (N := 10) (V c main_v77) (V c main_arg9)) (V c main_v78) :=
  (dat3 V c).arrAt_eq_of_cover 3 (addRow (M := 512) (N := 10) (rowsTimes (M := 512) (K := 128) (N := 10) (V c main_v77) (V c main_arg9)) (V c main_v78)) (fun t _ => flushed_eq V c t) cover

end Cert.KernelIdeal.Dense3

end
-- ==== Proof.FoldE.lean ====
/-
  The last dense layer's result and the three results at the return.

  The last region leaves the graph embeddings times the last weight matrix plus the bias row — the reference's
  dot_general and broadcast sum — and leaves the embeddings, which it only reads, as it found them. The one host
  operation after it writes the constant zero, the second result.
-/
import proofs.«181251_j41970420418158_1_alg».proof.Proof.FoldD
import proofs.«181251_j41970420418158_1_alg».proof.Proof.Dense3
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.ReferenceIdeal.ReadP Cert.DenseSpec

variable (m : (ℓ : Loc nD τ sig) → Buf (Elt Ideal) ℓ) (ρ : Dev nD → PrngReg) (c : Dev nD)

/-- The last region's result is the reference's predictions. -/
theorem at10_v79 : W10 m ρ c (Proc.devRef .tc main_v79) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 3).trans ((Dense3.out (V9 m ρ) c).trans ?_)
  show addRow (M := 512) (N := 10) (rowsTimes (M := 512) (K := 128) (N := 10) (W9 m ρ c (Proc.devRef .tc main_v77)) (W9 m ρ c (Proc.devRef .tc main_arg9))) (W9 m ρ c (Proc.devRef .tc main_v78)) = _
  rw [at9_v77 m ρ c, at9_arg9 m ρ c, at9_v78 m ρ c]
  exact ((hostBias_eq (M := 512) (N := 10) _ (m ((c : Thread nD τ).loc main_arg10)) _ _).trans
    (congrArg (fun X => addRow (M := 512) (N := 10) X (asRow (N := 10) (m ((c : Thread nD τ).loc main_arg10))))
      (hostDot_eq Cert.ReferenceIdeal.dot_S512x128_S128x10_S512x10_1_0_0_1_n_n rfl rfl rfl rfl rfl rfl _ _))).symm

/-- The last region only reads the graph embeddings. -/
theorem at10_v77 : W10 m ρ c (Proc.devRef .tc main_v77) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W10_arr m ρ c 0).trans (((dat3 (V9 m ρ) c).arrAt_in 0 rfl _).trans ((A_eq3 (V9 m ρ) c 0).trans (at9_v77 m ρ c)))

/-- The first result at the return. -/
theorem at11_v77 : W11 m ρ c (Proc.devRef .tc main_v77) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W10 m ρ c) (Proc.devRef .tc main_v77) = _
  after_results_simp
  exact at10_v77 m ρ c

/-- The third result at the return. -/
theorem at11_v79 : W11 m ρ c (Proc.devRef .tc main_v79) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps4 (W10 m ρ c) (Proc.devRef .tc main_v79) = _
  after_results_simp
  exact at10_v79 m ρ c

/-- The second result at the return: the constant zero. -/
theorem at11_cst : W11 m ρ c (Proc.devRef .tc main_cst_16) = constant (F := Ideal) S_ .f32 0x00000000#32 := by
  show StableHlo.after hostOps4 (W10 m ρ c) (Proc.devRef .tc main_cst_16) = _
  after_results_simp

theorem at11_arg0 : W11 m ρ c (Proc.devRef .tc main_arg0) = m ((c : Thread nD τ).loc main_arg0) := W11_main_arg0 m ρ c

theorem at11_arg1 : W11 m ρ c (Proc.devRef .tc main_arg1) = m ((c : Thread nD τ).loc main_arg1) := W11_main_arg1 m ρ c

theorem at11_arg2 : W11 m ρ c (Proc.devRef .tc main_arg2) = m ((c : Thread nD τ).loc main_arg2) := W11_main_arg2 m ρ c

theorem at11_arg3 : W11 m ρ c (Proc.devRef .tc main_arg3) = m ((c : Thread nD τ).loc main_arg3) := W11_main_arg3 m ρ c

theorem at11_arg4 : W11 m ρ c (Proc.devRef .tc main_arg4) = m ((c : Thread nD τ).loc main_arg4) := W11_main_arg4 m ρ c

theorem at11_arg5 : W11 m ρ c (Proc.devRef .tc main_arg5) = m ((c : Thread nD τ).loc main_arg5) := W11_main_arg5 m ρ c

theorem at11_arg6 : W11 m ρ c (Proc.devRef .tc main_arg6) = m ((c : Thread nD τ).loc main_arg6) := W11_main_arg6 m ρ c

theorem at11_arg7 : W11 m ρ c (Proc.devRef .tc main_arg7) = m ((c : Thread nD τ).loc main_arg7) := W11_main_arg7 m ρ c

theorem at11_arg8 : W11 m ρ c (Proc.devRef .tc main_arg8) = m ((c : Thread nD τ).loc main_arg8) := W11_main_arg8 m ρ c

theorem at11_arg9 : W11 m ρ c (Proc.devRef .tc main_arg9) = m ((c : Thread nD τ).loc main_arg9) := W11_main_arg9 m ρ c

theorem at11_arg10 : W11 m ρ c (Proc.devRef .tc main_arg10) = m ((c : Thread nD τ).loc main_arg10) := W11_main_arg10 m ρ c

end Cert.KernelIdeal.Fold

end
-- ==== Proof.KernelValue.lean ====
/-
  The idealized kernel's run, its three results named.

  Every weakly fair execution of the idealized kernel terminates; the graph embeddings, the constant zero and the
  predictions end at the terms the reference computes for them from the same argument arrays (read back through the
  segments of the program, the four dense layers each the reference's matrix product), and the arguments end as
  launched.
-/
import proofs.«181251_j41970420418158_1_alg».proof.Proof.Whole
import proofs.«181251_j41970420418158_1_alg».proof.Proof.FoldE

set_option maxRecDepth 16384

noncomputable section

namespace Cert.KernelIdeal.Whole

open Idealize.ShloMosaic Idealize.ShloMosaic.TcCoe Idealize.SL.Sem
open Cert.KernelIdeal Cert.KernelIdeal.Gen Cert.KernelIdeal.Fold Cert.ReferenceIdeal.ReadP

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c : Thread nD τ).loc main_v77) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_cst_16) = constant (F := Ideal) S_ .f32 0x00000000#32
      ∧ r.2.mem ((c : Thread nD τ).loc main_v79) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c =>
    ⟨(h c main_v77 (by decide)).trans (at11_v77 m ρ c),
     (h c main_cst_16 (by decide)).trans (at11_cst m ρ c),
     (h c main_v79 (by decide)).trans (at11_v79 m ρ c),
     (h c main_arg0 (by decide)).trans (at11_arg0 m ρ c),
     (h c main_arg1 (by decide)).trans (at11_arg1 m ρ c),
     (h c main_arg2 (by decide)).trans (at11_arg2 m ρ c),
     (h c main_arg3 (by decide)).trans (at11_arg3 m ρ c),
     (h c main_arg4 (by decide)).trans (at11_arg4 m ρ c),
     (h c main_arg5 (by decide)).trans (at11_arg5 m ρ c),
     (h c main_arg6 (by decide)).trans (at11_arg6 m ρ c),
     (h c main_arg7 (by decide)).trans (at11_arg7 m ρ c),
     (h c main_arg8 (by decide)).trans (at11_arg8 m ρ c),
     (h c main_arg9 (by decide)).trans (at11_arg9 m ρ c),
     (h c main_arg10 (by decide)).trans (at11_arg10 m ρ c)⟩)
    (run_named m ρ)

end Cert.KernelIdeal.Whole

end
-- ==== Proof.lean ====
/-
  The kernel — a two-layer graph convolution network whose four dense matrix products run as tiled TensorCore
  regions, the sparse gathers and scatter sums on the host — against the reference, which computes the same network
  with the host's dot_general.

  The three frames: the kernel's two programs by their generated frame certificates, the reference's by its run.
  The idealization rewrote nothing. On the extended reals the two programs end with equal results: every host
  operation of the kernel's program is an operation of the reference applied to the same values, and each region
  leaves, row block by row block, the matrix product (with the clamp at zero and the bias where the layer has
  them) that the reference's dot_general computes; a rounding to bf16 is the identity there. The reference
  recomputes the edge weights for its second convolution; the kernel reuses the first — the same term. No law
  needs a finite value, so the precondition is not opened.
-/
import proofs.«181251_j41970420418158_1_alg».proof.Defs
import proofs.«181251_j41970420418158_1_alg».proof.Proof.Gen.Kernel
import proofs.«181251_j41970420418158_1_alg».proof.Proof.Gen.Kernel.Skeleton
import proofs.«181251_j41970420418158_1_alg».proof.Proof.Gen.Kernel.Launch
import proofs.«181251_j41970420418158_1_alg».proof.Proof.Gen.Kernel.Points
import proofs.«181251_j41970420418158_1_alg».proof.Proof.Gen.Kernel.Frame
import proofs.«181251_j41970420418158_1_alg».proof.Proof.Gen.KernelIdeal
import proofs.«181251_j41970420418158_1_alg».proof.Proof.Gen.KernelIdeal.Skeleton
import proofs.«181251_j41970420418158_1_alg».proof.Proof.Gen.KernelIdeal.Launch
import proofs.«181251_j41970420418158_1_alg».proof.Proof.Gen.KernelIdeal.Points
import proofs.«181251_j41970420418158_1_alg».proof.Proof.Gen.KernelIdeal.Frame
import proofs.«181251_j41970420418158_1_alg».proof.Proof.Gen.ReferenceIdeal
import proofs.«181251_j41970420418158_1_alg».proof.Proof.Gen.Pre_finite_inputs
import proofs.«181251_j41970420418158_1_alg».proof.Proof.RefRead
import proofs.«181251_j41970420418158_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the results dropped. -/
theorem frame_referenceIdeal : Cert.frame_ReferenceIdeal := fun m ρ _ =>
  (θ_run Cert.ReferenceIdeal.defs _ _).mono (fun _ h c => (h c).2.2.2)
    (Cert.ReferenceIdeal.ValueP.run (F := Ideal) m ρ)

/-- The idealization rewrote no operation. -/
theorem preserves : Cert.preserves_Kernel_KernelIdeal := trivial

/-- Both runs end at the reference's terms of the argument arrays, which agree. -/
theorem algebraic : Cert.algebraic_KernelIdeal_ReferenceIdeal := by
  intro m ρ m' ρ' _ hagree
  refine ⟨_, _, _, Cert.KernelIdeal.Whole.run_value m ρ, ?_⟩
  refine (θ_run Cert.ReferenceIdeal.defs _ _).mono (fun r h c => ?_)
    (Cert.ReferenceIdeal.ValueP.run (F := Ideal) m' ρ')
  obtain ⟨g0, g1, g2, g3, g4, g5, g6, g7, g8, g9, g10⟩ := hagree c
  refine ⟨(h c).1.trans ((Cert.ReferenceIdeal.ReadP.val_main_v107_eq m' c).trans ?_), (h c).2.1,
    (h c).2.2.1.trans ((Cert.ReferenceIdeal.ReadP.val_main_v111_eq m' c).trans ?_), (h c).2.2.2⟩
  · rw [g0, g1, g2, g3, g4, g5, g6, g7, g8]
  · rw [g0, g1, g2, g3, g4, g5, g6, g7, g8, g9, g10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
